-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x48000 : Shape := ⟨2, ![256, 48000]⟩
abbrev S_ : Shape := ⟨0, ![]⟩

class Facts : Prop where
  bcast_S_S256x48000 : S_.BroadcastsInDim S256x48000 (![] : Fin 0 → Fin S256x48000.rank)
  reducesTo_S256x48000_S_d0_1 : S256x48000.ReducesTo [0, 1] S_
  h_S_ : 0 < S_.numel

variable [Facts]

def fn {F : FTy → Type} [FloatOps F] (main_arg0 : FVec F S256x48000 .f32) (main_arg1 : FVec F S256x48000 .f32) : IVec S_ 1 :=
  let main_v0 : FVec F S256x48000 .f32 := Host.absf main_arg0
  let main_cst : FVec F S_ .f32 := constant S_ .f32 0x7F800000#32
  let main_v1 : FVec F S256x48000 .f32 := broadcastInDim S256x48000 ![] bcast_S_S256x48000 main_cst
  let main_v2 : IVec S256x48000 1 := cmpf .olt main_v0 main_v1
  let main_c : IVec S_ 1 := constantI S_ 1 1#1
  let main_v3 : IVec S_ 1 := (fun x v => Host.reduce IntOp.andi x v reducesTo_S256x48000_S_d0_1 h_S_) main_v2 main_c
  let main_v4 : FVec F S256x48000 .f32 := Host.absf main_arg1
  let main_cst_0 : FVec F S_ .f32 := constant S_ .f32 0x7F800000#32
  let main_v5 : FVec F S256x48000 .f32 := broadcastInDim S256x48000 ![] bcast_S_S256x48000 main_cst_0
  let main_v6 : IVec S256x48000 1 := cmpf .olt main_v4 main_v5
  let main_c_1 : IVec S_ 1 := constantI S_ 1 1#1
  let main_v7 : IVec S_ 1 := (fun x v => Host.reduce IntOp.andi x v reducesTo_S256x48000_S_d0_1 h_S_) main_v6 main_c_1
  let main_v8 : IVec S_ 1 := andi main_v3 main_v7
  main_v8
-- ==== Kernel.lean ====
abbrev S256x48000 : Shape := ⟨2, ![256, 48000]⟩
abbrev S256x1 : Shape := ⟨2, ![256, 1]⟩
abbrev S32x16000 : Shape := ⟨2, ![32, 16000]⟩
abbrev S32x1 : Shape := ⟨2, ![32, 1]⟩
abbrev S32 : Shape := ⟨1, ![32]⟩
abbrev S256 : Shape := ⟨1, ![256]⟩
abbrev S_ : Shape := ⟨0, ![]⟩

abbrev nBuf : Space → Nat
  | .hbm => 25
  | .vmem => 16
  | .smem => 0
  | _ => 0

abbrev bufTy : (tb : Table) → Fin (tcTables nBuf tb) → BufTy
  | .hbm, ⟨0, _⟩ => ⟨S256x48000, .f32⟩
  | .hbm, ⟨1, _⟩ => ⟨S256x48000, .f32⟩
  | .hbm, ⟨2, _⟩ => ⟨S256x1, .f32⟩
  | .hbm, ⟨3, _⟩ => ⟨S256x1, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x1, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S32x16000, .f32⟩
  | .local _ .vmem, ⟨1, _⟩ => ⟨S32x16000, .f32⟩
  | .local _ .vmem, ⟨2, _⟩ => ⟨S32x16000, .f32⟩
  | .local _ .vmem, ⟨3, _⟩ => ⟨S32x16000, .f32⟩
  | .local _ .vmem, ⟨4, _⟩ => ⟨S32x1, .f32⟩
  | .local _ .vmem, ⟨5, _⟩ => ⟨S32x1, .f32⟩
  | .local _ .vmem, ⟨6, _⟩ => ⟨S32x1, .f32⟩
  | .local _ .vmem, ⟨7, _⟩ => ⟨S32x1, .f32⟩
  | .local _ .vmem, ⟨8, _⟩ => ⟨S32x16000, .f32⟩
  | .local _ .vmem, ⟨9, _⟩ => ⟨S32x16000, .f32⟩
  | .local _ .vmem, ⟨10, _⟩ => ⟨S32x16000, .f32⟩
  | .local _ .vmem, ⟨11, _⟩ => ⟨S32x16000, .f32⟩
  | .local _ .vmem, ⟨12, _⟩ => ⟨S32x1, .f32⟩
  | .local _ .vmem, ⟨13, _⟩ => ⟨S32x1, .f32⟩
  | .local _ .vmem, ⟨14, _⟩ => ⟨S32x1, .f32⟩
  | .local _ .vmem, ⟨15, _⟩ => ⟨S32x1, .f32⟩
  | _, _ => ⟨S256x48000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S32x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x16000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S32x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 3], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S32x16000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S32x16000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S32x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S32x1_S32x1_0_0 : ∀ a, (![0, 0] : Fin 2 → Nat) a + S32x1.size a ≤ S32x1.size a
  h_S32x1 : 0 < S32x1.numel
  inb_S32x16000_S32x16000_0_0 : ∀ a, (![0, 0] : Fin 2 → Nat) a + S32x16000.size a ≤ S32x16000.size a
  h_S32x16000 : 0 < S32x16000.numel
  shapeCasts_S32x1_S32x1 : S32x1.ShapeCasts S32x1
  reduces_S32x16000_S32 : S32x16000.Reduces [1] S32
  shapeCasts_S32_S32x1 : S32.ShapeCasts S32x1
  shapeCasts_S256x1_S256 : S256x1.ShapeCasts S256
  bcast_S256_S256x1_0 : S256.BroadcastsInDim S256x1 (![0] : Fin 1 → Fin S256x1.rank)
  broadcasts_S32x1_S32x16000 : S32x1.Broadcasts S32x16000
  bcast_S_S256 : S_.BroadcastsInDim S256 (![] : Fin 0 → Fin S256.rank)
  reducesTo_S256_S_d0 : S256.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x16000.size a ≤ S256x48000.size a
  hwx0_0 : ∀ i : grid0.Coords, EltTy.bits .f32 = 32 ∨ (Rect.block (s := S256x48000) S32x16000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x16000.size a ≤ S256x48000.size a
  hwx0_1 : ∀ i : grid0.Coords, EltTy.bits .f32 = 32 ∨ (Rect.block (s := S256x48000) S32x16000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S256x1.size a
  hwx0_2 : ∀ i : grid0.Coords, EltTy.bits .f32 = 32 ∨ (Rect.block (s := S256x1) S32x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x1.size a ≤ S256x1.size a
  hwx0_3 : ∀ i : grid0.Coords, EltTy.bits .f32 = 32 ∨ (Rect.block (s := S256x1) S32x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x16000.size a ≤ S256x48000.size a
  hwx1_0 : ∀ i : grid1.Coords, EltTy.bits .f32 = 32 ∨ (Rect.block (s := S256x48000) S32x16000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x16000.size a ≤ S256x48000.size a
  hwx1_1 : ∀ i : grid1.Coords, EltTy.bits .f32 = 32 ∨ (Rect.block (s := S256x48000) S32x16000.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S256x1.size a
  hwx1_2 : ∀ i : grid1.Coords, EltTy.bits .f32 = 32 ∨ (Rect.block (s := S256x1) S32x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S256x1.size a
  hwx1_3 : ∀ i : grid1.Coords, EltTy.bits .f32 = 32 ∨ (Rect.block (s := S256x1) S32x1.size (cc1_transform_3 i) (hinb1_3 i)).WholeWords (EltTy.packing .f32)

variable [Facts₀]

abbrev win0_0 : Pipeline.Window sig grid0 :=
  Pipeline.Window.ofSpec (Memref.whole main_arg1) S32x16000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x16000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S32x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S32x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S32x16000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S32x16000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S32x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S256x48000 : Shape := ⟨2, ![256, 48000]⟩
abbrev S_ : Shape := ⟨0, ![]⟩
abbrev S256 : Shape := ⟨1, ![256]⟩
abbrev S256x1 : Shape := ⟨2, ![256, 1]⟩

abbrev nBuf : Space → Nat
  | .hbm => 32
  | .vmem => 0
  | .smem => 0
  | _ => 0

abbrev bufTy : (tb : Table) → Fin (tcTables nBuf tb) → BufTy
  | .hbm, ⟨0, _⟩ => ⟨S256x48000, .f32⟩
  | .hbm, ⟨1, _⟩ => ⟨S256x48000, .f32⟩
  | .hbm, ⟨2, _⟩ => ⟨S256x48000, .f32⟩
  | .hbm, ⟨3, _⟩ => ⟨S_, .f32⟩
  | .hbm, ⟨4, _⟩ => ⟨S256, .f32⟩
  | .hbm, ⟨5, _⟩ => ⟨S256x48000, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256x1, .f32⟩
  | .hbm, ⟨10, _⟩ => ⟨S256x48000, .f32⟩
  | .hbm, ⟨11, _⟩ => ⟨S256x48000, .f32⟩
  | .hbm, ⟨12, _⟩ => ⟨S256x48000, .f32⟩
  | .hbm, ⟨13, _⟩ => ⟨S256x48000, .f32⟩
  | .hbm, ⟨14, _⟩ => ⟨S_, .f32⟩
  | .hbm, ⟨15, _⟩ => ⟨S256, .f32⟩
  | .hbm, ⟨16, _⟩ => ⟨S256x48000, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S256, .f32⟩
  | .hbm, ⟨21, _⟩ => ⟨S_, .f32⟩
  | .hbm, ⟨22, _⟩ => ⟨S256, .f32⟩
  | .hbm, ⟨23, _⟩ => ⟨S256, .f32⟩
  | .hbm, ⟨24, _⟩ => ⟨S_, .f32⟩
  | .hbm, ⟨25, _⟩ => ⟨S256, .f32⟩
  | .hbm, ⟨26, _⟩ => ⟨S256, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S256x48000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S256x48000_S256_d1 : S256x48000.ReducesTo [1] S256
  h_S_ : 0 < S_.numel
  bcast_S256_S256x1_0 : S256.BroadcastsInDim S256x1 (![0] : Fin 1 → Fin S256x1.rank)
  bcast_S256x1_S256x48000_0_1 : S256x1.BroadcastsInDim S256x48000 (![0, 1] : Fin 2 → Fin S256x48000.rank)
  bcast_S_S256 : S_.BroadcastsInDim S256 (![] : Fin 0 → Fin S256.rank)
  reducesTo_S256_S_d0 : S256.ReducesTo [0] S_

variable [Facts₀]

class Facts : Prop extends Facts₀ where

variable [Facts]
-- ==== Proof.NamedRun.lean ====
/-
  The kernel program's run with its result named: every weakly fair execution terminates, nothing faulting, the two
  argument arrays as launched, and the result buffer at the contents the last host stretch leaves — the fold of the
  program's four segments (launch, host stretch, launch, host stretch) from the launch memory.
-/
import proofs.«145115_j12833362280914_2_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v17) = W4 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v17 (by decide)),
       (h c _ (mem_uc main_arg0 (by decide))).trans (W4_main_arg0 m ρ c),
       (h c _ (mem_uc main_arg1 (by decide))).trans (W4_main_arg1 m ρ c)⟩)

end Cert.KernelIdeal.Named

end
-- ==== Proof.Pieces.lean ====
/-
  What one run of a kernel body leaves in an accumulator block, as a value of the blocks it read.

  Both bodies keep a [32, 1] accumulator per output. At the first column stretch of a row block the body stores zeros,
  reads them back and stores `zeros + (this stretch's lane sums)`; at a later stretch it reads what the stretch before
  left and stores `that + (this stretch's lane sums)`. Each store covers the whole block, so the block ends at the last
  store's value: the body's arithmetic applied to the input blocks and to the zeros (first stretch) or to the previous
  contents (later stretches). Stated for any float instance.
-/
import proofs.«145115_j12833362280914_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-! ## The inner products and the target's energies -/

/-- A later stretch: the inner-product accumulator ends at the body's sum step of the two input blocks over what it held. -/
theorem dot_next (c : Dev nD) (i : grid0.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : ¬cond0_0 i)
    (x0 x1 : Vec F S32x16000 .f32) (xo2 xo3 : Vec F S32x1 .f32) :
    out0_B_2 c i a2 h2 a3 h3 a4 h4 a5 h5 hc x0 x1 xo2 xo3 = k0_pay3 x0 x1 xo2 := by
  unfold out0_B_2
  rw [View.read_writes_eq_canon _ _ _ (cover0_B_2 c i a2 h2 a3 h3 a4 h4 a5 h5 hc x0 x1 xo2 xo3)]
  unfold kernelRun0_B
  dsimp only
  rw [View.canon_unit_zero hz]
  simp only [View.readAt_eq_ld, h2.read_unread, h3.read_unread, h4.read_unread,
    View.ld_unit_zero (S := S32x16000) hz, View.ld_unit_zero (S := S32x1) hz]

/-- A later stretch: the energy accumulator ends at the body's sum step of the target block over what it held. -/
theorem energy_next (c : Dev nD) (i : grid0.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : ¬cond0_0 i)
    (x0 x1 : Vec F S32x16000 .f32) (xo2 xo3 : Vec F S32x1 .f32) :
    out0_B_3 c i a2 h2 a3 h3 a4 h4 a5 h5 hc x0 x1 xo2 xo3 = k0_pay4 x0 xo3 := by
  unfold out0_B_3
  rw [View.read_writes_eq_canon _ _ _ (cover0_B_3 c i a2 h2 a3 h3 a4 h4 a5 h5 hc x0 x1 xo2 xo3)]
  unfold kernelRun0_B
  dsimp only
  rw [View.canon_unit_zero hz]
  simp only [View.readAt_eq_ld, h2.read_unread, h5.read_unread,
    View.ld_unit_zero (S := S32x16000) hz, View.ld_unit_zero (S := S32x1) hz]

/-- The first stretch: the inner-product accumulator ends at the sum step over the zeros it has just stored. -/
theorem dot_first (c : Dev nD) (i : grid0.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : cond0_0 i)
    (x0 x1 : Vec F S32x16000 .f32) :
    out0_A_2 c i a2 h2 a3 h3 a4 h4 a5 h5 hc x0 x1 = k0_pay3 x0 x1 (k0_pay1 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S32x1) hz, View.readCov_unit_zero (S := S32x1) _ hz]
  simp only [View.readAt_eq_ld, h2.read_unread, h3.read_unread,
    View.ld_unit_zero (S := S32x16000) hz]

/-- The first stretch: the energy accumulator ends at the sum step over the zeros it has just stored. -/
theorem energy_first (c : Dev nD) (i : grid0.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : cond0_0 i)
    (x0 x1 : Vec F S32x16000 .f32) :
    out0_A_3 c i a2 h2 a3 h3 a4 h4 a5 h5 hc x0 x1 = k0_pay4 x0 (k0_pay2 (F := F)) := by
  unfold out0_A_3
  rw [View.read_writes_eq_canon _ _ _ (cover0_A_3 c i a2 h2 a3 h3 a4 h4 a5 h5 hc x0 x1)]
  unfold kernelRun0_A
  dsimp only
  sl_unfold_words
  rw [View.canon_cons_unit_zero (S := S32x1) hz, View.readCov_unit_zero (S := S32x1) _ hz]
  simp only [View.readAt_eq_ld, h2.read_unread,
    View.ld_unit_zero (S := S32x16000) hz]

/-! ## The residual's energies -/

/-- A later stretch: the residual-energy accumulator ends at the body's sum step of the three input blocks over what it held. -/
theorem residual_next (c : Dev nD) (i : grid1.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : ¬cond1_0 i)
    (x0 x1 : Vec F S32x16000 .f32) (x2 : Vec F S32x1 .f32) (xo3 : Vec F S32x1 .f32) :
    out1_B_3 c i a2 h2 a3 h3 a4 h4 a5 h5 hc x0 x1 x2 xo3 = k1_pay2 x0 x1 x2 xo3 := by
  unfold out1_B_3
  rw [View.read_writes_eq_canon _ _ _ (cover1_B_3 c i a2 h2 a3 h3 a4 h4 a5 h5 hc x0 x1 x2 xo3)]
  unfold kernelRun1_B
  dsimp only
  rw [View.canon_unit_zero hz]
  simp only [View.readAt_eq_ld, h2.read_unread, h3.read_unread, h4.read_unread, h5.read_unread,
    View.ld_unit_zero (S := S32x16000) hz, View.ld_unit_zero (S := S32x1) hz]

/-- The first stretch: the residual-energy accumulator ends at the sum step over the zeros it has just stored. -/
theorem residual_first (c : Dev nD) (i : grid1.Coords) (a2 : Memref sig .tc .vmem S32x16000 .f32) (h2 : a2.IsWhole)
    (a3 : Memref sig .tc .vmem S32x16000 .f32) (h3 : a3.IsWhole) (a4 : Memref sig .tc .vmem S32x1 .f32) (h4 : a4.IsWhole)
    (a5 : Memref sig .tc .vmem S32x1 .f32) (h5 : a5.IsWhole) (hc : cond1_0 i)
    (x0 x1 : Vec F S32x16000 .f32) (x2 : Vec F S32x1 .f32) :
    out1_A_3 c i a2 h2 a3 h3 a4 h4 a5 h5 hc x0 x1 x2 = k1_pay2 x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S32x1) hz, View.readCov_unit_zero (S := S32x1) _ hz]
  simp only [View.readAt_eq_ld, h2.read_unread, h3.read_unread, h4.read_unread,
    View.ld_unit_zero (S := S32x16000) hz, View.ld_unit_zero (S := S32x1) hz]

end Cert.KernelIdeal.Pieces

end
-- ==== Proof.Payloads.lean ====
/-
  The bodies' arithmetic read at one row, on the extended reals.

  Row `r` of a [32, 1] accumulator after a sum step is its previous entry plus the sum over the stretch's 16000 lanes of
  the products the body forms: `t·x` for the inner product, `t·t` for the energy, `(x - s t)(x - s t)` for the residual
  with `s` the row's scale, held in a [32, 1] block and broadcast along the lanes. The zeros the first stretch stores are
  the extended real `0`.
-/
import proofs.«145115_j12833362280914_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.Payloads

open Cert.KernelIdeal Cert.KernelIdeal.Gen

/-- The lane sums of a [32, 16000] block, kept as a column: row `r` is the sum of the row's 16000 entries. -/
theorem laneSums_apply (v : FVec Ideal S32x16000 .f32) (r : Fin 32) :
    shapeCast S32x1 (multiReduction .add [1] S32 v 0x00000000#32 reduces_S32x16000_S32 (.inl rfl) rfl) shapeCasts_S32_S32x1
        (ix2 r 0)
      = ∑ k : Fin 16000, v (ix2 r k) := by
  refine (shapeCast_apply _ shapeCasts_S32_S32x1 (ix2 r 0) (ix1 r) ?_).trans ?_
  · rw [Shape.rowMajor_val_one, Shape.rowMajor_val_two]
    show r.val = r.val * 1 + 0
    omega
  · refine (Ideal.multiReduction_add_single v 0x00000000#32 reduces_S32x16000_S32 (.inl rfl) rfl (ix1 r)).trans ?_
    exact Finset.sum_congr rfl fun k _ =>
      congrArg v (funext fun a => Fin.ext (by match a with | ⟨0, _⟩ => rfl | ⟨1, _⟩ => rfl))

/-- The inner product's sum step at row `r`. -/
theorem dotStep_apply (t x : Vec Ideal S32x16000 .f32) (acc : Vec Ideal S32x1 .f32) (r : Fin 32) :
    k0_pay3 (F := Ideal) t x acc (ix2 r 0) = acc (ix2 r 0) + ∑ k : Fin 16000, t (ix2 r k) * x (ix2 r k) := by
  unfold k0_pay3
  exact congrArg₂ (· + ·) (congrFun (shapeCast_self acc _) _) (laneSums_apply (mulf t x) r)

/-- The energy's sum step at row `r`. -/
theorem energyStep_apply (t : Vec Ideal S32x16000 .f32) (acc : Vec Ideal S32x1 .f32) (r : Fin 32) :
    k0_pay4 (F := Ideal) t acc (ix2 r 0) = acc (ix2 r 0) + ∑ k : Fin 16000, t (ix2 r k) * t (ix2 r k) := by
  unfold k0_pay4
  exact congrArg₂ (· + ·) (congrFun (shapeCast_self acc _) _) (laneSums_apply (mulf t t) r)

/-- A [32, 1] column broadcast along 16000 lanes reads, at `(r, k)`, the column's row `r`. -/
theorem column_broadcast_apply (s : FVec Ideal S32x1 .f32) (r : Fin 32) (k : Fin 16000) :
    broadcastTo S32x16000 s broadcasts_S32x1_S32x16000 (ix2 r k) = s (ix2 r 0) :=
  broadcastTo_apply s broadcasts_S32x1_S32x16000 (ix2 r k) (ix2 r 0) (fun a => by
    match a with
    | ⟨0, _⟩ => show r.val = if (32 : Nat) = 1 then 0 else r.val; rw [if_neg (by decide)]
    | ⟨1, _⟩ => show 0 = if (1 : Nat) = 1 then 0 else k.val; rw [if_pos rfl])

/-- The residual's sum step at row `r`, with the scale's block `s`. -/
theorem residualStep_apply (t x : Vec Ideal S32x16000 .f32) (s acc : Vec Ideal S32x1 .f32) (r : Fin 32) :
    k1_pay2 (F := Ideal) t x s acc (ix2 r 0)
      = acc (ix2 r 0) + ∑ k : Fin 16000,
          (x (ix2 r k) - s (ix2 r 0) * t (ix2 r k)) * (x (ix2 r k) - s (ix2 r 0) * t (ix2 r k)) := by
  unfold k1_pay2
  refine congrArg₂ (· + ·) (congrFun (shapeCast_self acc _) _) ((laneSums_apply _ r).trans ?_)
  refine Finset.sum_congr rfl fun k _ => ?_
  have e : broadcastTo S32x16000 (shapeCast S32x1 s shapeCasts_S32x1_S32x1) broadcasts_S32x1_S32x16000 (ix2 r k) = s (ix2 r 0) :=
    (column_broadcast_apply _ r k).trans (congrFun (shapeCast_self s _) _)
  show (x (ix2 r k) - broadcastTo S32x16000 (shapeCast S32x1 s shapeCasts_S32x1_S32x1) broadcasts_S32x1_S32x16000 (ix2 r k) * t (ix2 r k))
      * (x (ix2 r k) - broadcastTo S32x16000 (shapeCast S32x1 s shapeCasts_S32x1_S32x1) broadcasts_S32x1_S32x16000 (ix2 r k) * t (ix2 r k)) = _
  rw [e]

/-- The zeros the first stretch stores are `0`. -/
theorem zeros2_apply (j : S32x1.Idx) : k0_pay1 (F := Ideal) j = 0 := Ideal.ofBits_zero_f32
theorem zeros3_apply (j : S32x1.Idx) : k0_pay2 (F := Ideal) j = 0 := Ideal.ofBits_zero_f32
theorem zerosR_apply (j : S32x1.Idx) : k1_pay1 (F := Ideal) j = 0 := Ideal.ofBits_zero_f32

end Cert.KernelIdeal.Payloads

end
-- ==== Proof.Spec.lean ====
/-
  The scale-invariant signal-to-noise ratio of 256 waveforms of 48000 samples, as functions on the extended reals, and
  the two laws its two computations differ by.

  For a target row `t` and an estimate row `x`: the inner product `⟨t, x⟩ = ∑ₖ tₖ xₖ`, the target's energy
  `‖t‖² = ∑ₖ tₖ tₖ`, the scale `s = ⟨t, x⟩ / ‖t‖²`, the energy of the projection `∑ₖ (s tₖ)(s tₖ)` and of the residual
  `∑ₖ (xₖ - s tₖ)(xₖ - s tₖ)`. One computation forms the projection's energy term by term, the other as `(s s) ‖t‖²`:
  on the extended reals the factor `s s` moves across the sum because every summand `tₖ tₖ` is non-negative
  (`mul_sum_of_nonneg`; no finiteness is needed, and `s` may be infinite). One computation sums the 48000 columns in
  one sum, the other as three consecutive stretches of 16000 added in order to zero: addition on the extended reals is
  associative and commutative, so the two agree (`inThree_eq_sum`).
-/
import Idealize.ShloMosaic.PureOps
import Idealize.ShloMosaic.PureOps.Ideal
import Idealize.ShloMosaic.Lib.ValueIdx

noncomputable section

open scoped BigOperators

namespace Cert.SiSnr

open Idealize.ShloMosaic Idealize.ShloMosaic.ValueIdx

/-- 256 waveforms of 48000 samples, as extended reals. -/
abbrev Waves : Type := (⟨2, ![256, 48000]⟩ : Shape).Idx → EReal

/-- `⟨t, x⟩` of row `b`. -/
def rowDot (t x : Waves) (b : Fin 256) : EReal := ∑ k : Fin 48000, t (ix2 b k) * x (ix2 b k)

/-- `‖t‖²` of row `b`. -/
def rowEnergy (t : Waves) (b : Fin 256) : EReal := ∑ k : Fin 48000, t (ix2 b k) * t (ix2 b k)

/-- The energy of row `b` of `x - s t`, for a scale `s` per row. -/
def residualEnergy (t x : Waves) (s : Fin 256 → EReal) (b : Fin 256) : EReal :=
  ∑ k : Fin 48000, (x (ix2 b k) - s b * t (ix2 b k)) * (x (ix2 b k) - s b * t (ix2 b k))

/-- The energy of row `b` of `s t`, term by term. -/
def projectionEnergy (t : Waves) (s : Fin 256 → EReal) (b : Fin 256) : EReal :=
  ∑ k : Fin 48000, (s b * t (ix2 b k)) * (s b * t (ix2 b k))

/-- The scale of row `b`: `⟨t, x⟩ / ‖t‖²` (the extended reals' quotient, whatever it is where `‖t‖² = 0`). -/
def scale (t x : Waves) (b : Fin 256) : EReal := Ideal.div (rowDot t x b) (rowEnergy t b)

/-- The signal-to-noise ratio of row `b`: the projection's energy over the residual's, at the row's scale. -/
def ratio (t x : Waves) (b : Fin 256) : EReal :=
  Ideal.div (projectionEnergy t (scale t x) b) (residualEnergy t x (scale t x) b)

/-- What both programs do with the 256 ratios: `-(∑ᵦ 10 · (log rᵦ · c)) / 256` with `c` the single-precision word for
    `1 / log 10` — the same host operations with the same literals on both sides, so it is carried as one function and
    never opened. (Its shape facts are propositions: any two proofs of them give the same function.) -/
def meanDecibels (hb : (⟨0, ![]⟩ : Shape).BroadcastsInDim ⟨1, ![256]⟩ (![] : Fin 0 → Fin 1))
    (hr : (⟨1, ![256]⟩ : Shape).ReducesTo [0] ⟨0, ![]⟩) (h0 : 0 < (⟨0, ![]⟩ : Shape).numel)
    (r : FVec Ideal ⟨1, ![256]⟩ .f32) : FVec Ideal ⟨0, ![]⟩ .f32 :=
  Host.negf (Host.divf
    (Host.reduceAdd
      (mulf (broadcastInDim ⟨1, ![256]⟩ ![] hb (constant (F := Ideal) ⟨0, ![]⟩ .f32 0x41200000#32))
        (mulf (Host.log r) (broadcastInDim ⟨1, ![256]⟩ ![] hb (constant (F := Ideal) ⟨0, ![]⟩ .f32 0x3EDE5BD9#32))))
      (constant (F := Ideal) ⟨0, ![]⟩ .f32 0x00000000#32) hr h0)
    (constant (F := Ideal) ⟨0, ![]⟩ .f32 0x43800000#32))

/-! ## A factor moves across a sum of non-negative terms -/

/-- A square is non-negative on the extended reals, at the infinities too (`⊥ · ⊥ = ⊤`). -/
theorem mul_self_nonneg (x : EReal) : 0 ≤ x * x := by
  induction x using EReal.rec with
  | bot => rw [EReal.bot_mul_bot]; exact le_top
  | coe r => rw [← EReal.coe_mul]; exact EReal.coe_nonneg.mpr (_root_.mul_self_nonneg r)
  | top => rw [EReal.top_mul_top]; exact le_top

/-- Any factor, finite or not, distributes over a finite sum of non-negative extended reals. -/
theorem mul_sum_of_nonneg {ι : Type*} (s : Finset ι) (c : EReal) (f : ι → EReal) (hf : ∀ i ∈ s, 0 ≤ f i) :
    c * ∑ i ∈ s, f i = ∑ i ∈ s, c * f i := by
  classical
  induction s using Finset.induction_on with
  | empty => simp
  | insert a s ha ih =>
    rw [Finset.sum_insert ha, Finset.sum_insert ha,
      EReal.left_distrib_of_nonneg (hf a (Finset.mem_insert_self a s))
        (Finset.sum_nonneg fun i hi => hf i (Finset.mem_insert_of_mem hi)),
      ih fun i hi => hf i (Finset.mem_insert_of_mem hi)]

/-- The projection's energy, term by term, is `(s s) ‖t‖²`: for every scale, infinite ones included. -/
theorem projectionEnergy_eq (t : Waves) (s : Fin 256 → EReal) (b : Fin 256) :
    projectionEnergy t s b = (s b * s b) * rowEnergy t b := by
  unfold projectionEnergy rowEnergy
  rw [mul_sum_of_nonneg _ _ _ fun k _ => mul_self_nonneg (t (ix2 b k))]
  exact Finset.sum_congr rfl fun k _ => mul_mul_mul_comm _ _ _ _

/-- So the ratio with the projection's energy formed as `(s s) ‖t‖²` is the ratio. -/
theorem ratio_eq (t x : Waves) (b : Fin 256) :
    Ideal.div ((scale t x b * scale t x b) * rowEnergy t b) (residualEnergy t x (scale t x) b) = ratio t x b := by
  unfold ratio
  rw [projectionEnergy_eq]

/-! ## 48000 columns as three stretches of 16000 -/

/-- Column `j` of stretch `q`. -/
def col (q : Fin 3) (j : Fin 16000) : Fin 48000 := ⟨q.val * 16000 + j.val, by have := q.isLt; have := j.isLt; omega⟩

theorem col_val (q : Fin 3) (j : Fin 16000) : (col q j).val = q.val * 16000 + j.val := rfl

/-- The sum over the 48000 columns taken as three consecutive stretches of 16000, added in order to zero. -/
def inThree (f : Fin 48000 → EReal) : EReal :=
  ((0 + ∑ j : Fin 16000, f (col 0 j)) + ∑ j : Fin 16000, f (col 1 j)) + ∑ j : Fin 16000, f (col 2 j)

theorem sum_eq_sum_col (f : Fin 48000 → EReal) : ∑ k : Fin 48000, f k = ∑ q : Fin 3, ∑ j : Fin 16000, f (col q j) := by
  rw [← Fintype.sum_prod_type (f := fun p : Fin 3 × Fin 16000 => f (col p.1 p.2))]
  refine (Equiv.sum_comp (finProdFinEquiv (m := 3) (n := 16000)) f).symm.trans ?_
  refine Finset.sum_congr rfl fun p _ => congrArg f (Fin.ext ?_)
  show p.2.val + 16000 * p.1.val = p.1.val * 16000 + p.2.val
  omega

/-- The three stretches added in order to zero are the one sum. -/
theorem inThree_eq_sum (f : Fin 48000 → EReal) : inThree f = ∑ k : Fin 48000, f k := by
  rw [sum_eq_sum_col, Fin.sum_univ_three]
  unfold inThree
  rw [zero_add]

end Cert.SiSnr

end
-- ==== Proof.DotEnergy.lean ====
/-
  The first launch: what its two result arrays hold at its exit, for any contents `V` of the buffers at its entry.

  The grid is 8 row blocks of 32 rows by 3 column stretches of 16000; point `t` is row block `t / 3`, stretch `t % 3`.
  The [32, 1] accumulators of a row block are reset at stretch 0, added into at stretches 1 and 2, and written back after
  stretch 2 — so the block written back at `t = 3q + 2` holds, at row `r`, the three stretches' lane sums added in order
  to zero, which is the whole row's sum (`inThree_eq_sum`): the inner product `⟨t, x⟩` of row `32q + r` in the first
  result and the target's energy `‖t‖²` in the second. The eight written-back blocks tile the [256, 1] arrays.
-/
import proofs.«145115_j12833362280914_2_alg».proof.Proof.Pieces
import proofs.«145115_j12833362280914_2_alg».proof.Proof.Payloads
import proofs.«145115_j12833362280914_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.DotEnergy

open Cert.KernelIdeal Cert.KernelIdeal.Gen Cert.SiSnr

variable (V : (c : Dev nD) → (b : Ref sig .tc) → Buf (Elt Ideal) ((c : Thread nD τ).loc b))

/-- The printed index maps over the grid: the two inputs' block at point `t` is (row block `t / 3`, stretch `t % 3`),
    the two outputs' is (row block `t / 3`, 0). -/
theorem idx_facts : ∀ t : Fin cfg0.N,
    win0_0.index t (0 : Fin 2) = t.val / 3 ∧ win0_0.index t (1 : Fin 2) = t.val % 3
    ∧ win0_1.index t (0 : Fin 2) = t.val / 3 ∧ win0_1.index t (1 : Fin 2) = t.val % 3
    ∧ win0_2.index t (0 : Fin 2) = t.val / 3 ∧ win0_2.index t (1 : Fin 2) = 0
    ∧ win0_3.index t (0 : Fin 2) = t.val / 3 ∧ win0_3.index t (1 : Fin 2) = 0 :=
  (by decide +kernel : ∀ t : Fin grid0.N, _)

/-! ## The input blocks, read in the arrays -/

/-- The target's and the estimate's [32, 16000] block at point `t`. -/
abbrev tblk (c : Dev nD) (t : Fin cfg0.N) : Vec Ideal S32x16000 .f32 := iblk0 V c 0 t
abbrev xblk (c : Dev nD) (t : Fin cfg0.N) : Vec Ideal S32x16000 .f32 := iblk0 V c 1 t

/-- Row `r`, lane `k` of the target's block at point `t` is the target at row `32 (t / 3) + r`, column `16000 (t % 3) + k`. -/
theorem target_read (c : Dev nD) (t : Fin cfg0.N) (q : Fin 3) (hq : t.val % 3 = q.val) (b : Fin 256) (r : Fin 32)
    (hb : b.val = 32 * (t.val / 3) + r.val) (k : Fin 16000) :
    tblk V c t (ix2 r k) = V c main_arg1 (ix2 b (col q k)) := by
  obtain ⟨e0, e1, -⟩ := idx_facts t
  unfold tblk iblk0
  rw [View.read_apply]
  show V c main_arg1 (((cfg0.win 0).blk t).view.emb (ix2 r k)) = V c main_arg1 (ix2 b (col q k))
  refine congrArg (V c main_arg1) (funext fun a => Fin.ext ?_)
  match a with
  | ⟨0, _⟩ => show win0_0.index t (0 : Fin 2) * 32 + 1 * r.val = b.val; omega
  | ⟨1, _⟩ => show win0_0.index t (1 : Fin 2) * 16000 + 1 * k.val = q.val * 16000 + k.val; rw [e1, hq]; omega

/-- The same of the estimate's block. -/
theorem estimate_read (c : Dev nD) (t : Fin cfg0.N) (q : Fin 3) (hq : t.val % 3 = q.val) (b : Fin 256) (r : Fin 32)
    (hb : b.val = 32 * (t.val / 3) + r.val) (k : Fin 16000) :
    xblk V c t (ix2 r k) = V c main_arg0 (ix2 b (col q k)) := by
  obtain ⟨-, -, e0, e1, -⟩ := idx_facts t
  unfold xblk iblk0
  rw [View.read_apply]
  show V c main_arg0 (((cfg0.win 1).blk t).view.emb (ix2 r k)) = V c main_arg0 (ix2 b (col q k))
  refine congrArg (V c main_arg0) (funext fun a => Fin.ext ?_)
  match a with
  | ⟨0, _⟩ => show win0_1.index t (0 : Fin 2) * 32 + 1 * r.val = b.val; omega
  | ⟨1, _⟩ => show win0_1.index t (1 : Fin 2) * 16000 + 1 * k.val = q.val * 16000 + k.val; rw [e1, hq]; omega

/-! ## The accumulators, point by point -/

/-- At stretch 0 the inner-product accumulator's row `r` is zero plus the stretch's sum of products. -/
theorem dot_at_first (c : Dev nD) (t : Fin cfg0.N) (h0 : t.val % 3 = 0) (r : Fin 32) :
    (outsAt0 V c t.val t.isLt).1 (ix2 r 0)
      = 0 + ∑ k : Fin 16000, tblk V c t (ix2 r k) * xblk V c t (ix2 r k) := by
  rw [outsAt0_A V c t h0]
  dsimp only
  rw [Pieces.dot_first c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)]
  rw [Payloads.dotStep_apply, Payloads.zeros2_apply]

/-- At a later stretch it is what the stretch before left plus the stretch's sum of products. -/
theorem dot_at_next (c : Dev nD) (t : Fin cfg0.N) (h0 : ¬t.val % 3 = 0) (r : Fin 32) :
    (outsAt0 V c t.val t.isLt).1 (ix2 r 0)
      = (outsAt0 V c (t.val - 1) (Nat.lt_of_le_of_lt (Nat.sub_le _ _) t.isLt)).1 (ix2 r 0)
        + ∑ k : Fin 16000, tblk V c t (ix2 r k) * xblk V c t (ix2 r k) := by
  rw [outsAt0_B V c t h0]
  dsimp only
  rw [Pieces.dot_next c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t) _ _]
  rw [Payloads.dotStep_apply]

/-- After the last stretch of a row block the inner-product accumulator's row `r` is the row's inner product. -/
theorem dot_row (c : Dev nD) (t : Fin cfg0.N) (ht : t.val % 3 = 2) (b : Fin 256) (r : Fin 32)
    (hb : b.val = 32 * (t.val / 3) + r.val) :
    (outsAt0 V c t.val t.isLt).1 (ix2 r 0) = rowDot (V c main_arg1) (V c main_arg0) b := by
  have hN : t.val < 24 := lt_of_lt_of_eq t.isLt (show cfg0.N = 24 from N_0)
  have hlt1 : t.val - 1 < cfg0.N := Nat.lt_of_le_of_lt (Nat.sub_le _ _) t.isLt
  have hlt2 : t.val - 2 < cfg0.N := Nat.lt_of_le_of_lt (Nat.sub_le _ _) t.isLt
  have e2 := dot_at_next V c t (by omega) r
  have e1 := dot_at_next V c ⟨t.val - 1, hlt1⟩ (by dsimp only; omega) r
  have e0 := dot_at_first V c ⟨t.val - 2, hlt2⟩ (by dsimp only; omega) r
  dsimp only at e1 e0
  have e1' : (outsAt0 V c (t.val - 1) hlt1).1 (ix2 r 0)
      = (outsAt0 V c (t.val - 2) hlt2).1 (ix2 r 0)
        + ∑ k : Fin 16000, tblk V c ⟨t.val - 1, hlt1⟩ (ix2 r k) * xblk V c ⟨t.val - 1, hlt1⟩ (ix2 r k) := e1
  rw [e2, e1', e0]
  unfold rowDot
  rw [← inThree_eq_sum]
  unfold inThree
  have hd1 : (t.val - 1) / 3 = t.val / 3 := by omega
  have hd2 : (t.val - 2) / 3 = t.val / 3 := by omega
  simp only [target_read V c t 2 (by omega) b r hb, estimate_read V c t 2 (by omega) b r hb,
    target_read V c ⟨t.val - 1, hlt1⟩ 1 (by dsimp only; omega) b r (by dsimp only; omega),
    estimate_read V c ⟨t.val - 1, hlt1⟩ 1 (by dsimp only; omega) b r (by dsimp only; omega),
    target_read V c ⟨t.val - 2, hlt2⟩ 0 (by dsimp only; omega) b r (by dsimp only; omega),
    estimate_read V c ⟨t.val - 2, hlt2⟩ 0 (by dsimp only; omega) b r (by dsimp only; omega)]

/-! ## The first result array at the exit -/

/-- What it holds: row `b`'s inner product. -/
def dots (c : Dev nD) : Buf (Elt Ideal) ((c : Thread nD τ).loc main_v0_0) :=
  fun i => rowDot (V c main_arg1) (V c main_arg0) (i 0)

/-- The block written back after a row block's last stretch is that block of the inner products. -/
theorem dot_flushed (c : Dev nD) (t : Fin cfg0.N) (hf : (cfg0.win 2).flush t = true) :
    (dat0 V c).flushed 2 t = ((cfg0.win 2).blk t).view.read (Elt Ideal) (dots V c) := by
  have ht : t.val % 3 = 2 := (flush0_2 t).mp hf
  obtain ⟨-, -, -, -, e0, -⟩ := idx_facts t
  show (cfg0.win 2).cut (grid0.coords t) ((dat0 V c).after 2 t) = _
  rw [after0_2]
  have hN : t.val < 24 := lt_of_lt_of_eq t.isLt (show cfg0.N = 24 from N_0)
  refine funext fun (j : S32x1.Idx) => ?_
  obtain ⟨r, z, rfl⟩ : ∃ (r : Fin 32) (z : Fin 1), j = ix2 r z := ⟨j 0, j 1, eq_ix2 j⟩
  obtain rfl : z = 0 := Fin.ext (by have := z.isLt; omega)
  rw [View.read_apply, cast_eq]
  unfold dots
  have hb : ((((cfg0.win 2).blk t).view.emb (ix2 r 0)) 0).val = 32 * (t.val / 3) + r.val := by
    show win0_2.index t (0 : Fin 2) * 32 + 1 * r.val = 32 * (t.val / 3) + r.val
    rw [e0]; omega
  have key := dot_row V c t ht ((((cfg0.win 2).blk t).view.emb (ix2 r 0)) 0) r hb
  have hcut : (cfg0.win 2).cut (grid0.coords t) (outsAt0 V c t.val t.isLt).1 (ix2 r 0)
      = (outsAt0 V c t.val t.isLt).1 (ix2 r 0) := rfl
  rw [hcut]
  exact key

/-- Every row is in the block some row block's last stretch writes back. -/
theorem dot_cover (i : S256x1.Idx) :
    ∃ t : Fin cfg0.N, (cfg0.win 2).flush t = true ∧ i ∈ ((cfg0.win 2).blk t).view.set := by
  have hi0 : (i 0).val < 256 := (i 0).isLt
  have hi1 : (i 1).val < 1 := (i 1).isLt
  have hN : cfg0.N = 24 := N_0
  have hlt : 3 * ((i 0).val / 32) + 2 < cfg0.N := by rw [hN]; omega
  refine ⟨⟨3 * ((i 0).val / 32) + 2, hlt⟩, (flush0_2 _).mpr (by show (3 * ((i 0).val / 32) + 2) % 3 = 2; omega), ?_⟩
  obtain ⟨-, -, -, -, e0, e1, -⟩ := idx_facts ⟨3 * ((i 0).val / 32) + 2, hlt⟩
  have e0' : win0_2.index ⟨3 * ((i 0).val / 32) + 2, hlt⟩ (0 : Fin 2) = (i 0).val / 32 := by rw [e0]; show (3 * ((i 0).val / 32) + 2) / 3 = _; omega
  show i ∈ ((View.whole main_v0_0).slice (win0_2.rect ⟨3 * ((i 0).val / 32) + 2, hlt⟩)).set
  rw [View.set_slice_whole, Rect.mem_set_unit]
  intro a
  match a with
  | ⟨0, _⟩ =>
    show win0_2.index ⟨3 * ((i 0).val / 32) + 2, hlt⟩ (0 : Fin 2) * 32 ≤ (i 0).val
      ∧ (i 0).val < win0_2.index ⟨3 * ((i 0).val / 32) + 2, hlt⟩ (0 : Fin 2) * 32 + 32
    rw [e0']; omega
  | ⟨1, _⟩ =>
    show win0_2.index ⟨3 * ((i 0).val / 32) + 2, hlt⟩ (1 : Fin 2) * 1 ≤ (i 1).val
      ∧ (i 1).val < win0_2.index ⟨3 * ((i 0).val / 32) + 2, hlt⟩ (1 : Fin 2) * 1 + 1
    rw [e1]; omega

/-- So the first result array ends at the 256 inner products. -/
theorem dot_final (c : Dev nD) : (dat0 V c).arrAt 2 cfg0.N = dots V c :=
  (dat0 V c).arrAt_eq_of_cover 2 (dots V c) (dot_flushed V c) dot_cover

/-! ## The energy accumulator, point by point -/

/-- At stretch 0 the energy accumulator's row `r` is zero plus the stretch's sum of squares. -/
theorem energy_at_first (c : Dev nD) (t : Fin cfg0.N) (h0 : t.val % 3 = 0) (r : Fin 32) :
    (outsAt0 V c t.val t.isLt).2 (ix2 r 0)
      = 0 + ∑ k : Fin 16000, tblk V c t (ix2 r k) * tblk V c t (ix2 r k) := by
  rw [outsAt0_A V c t h0]
  dsimp only
  rw [Pieces.energy_first c (grid0.coords t) (ms0_0 t) (hs0_0 t) (ms0_1 t) (hs0_1 t) (ms0_2 t) (hs0_2 t) (ms0_3 t) (hs0_3 t)
    ((hcond0_0 t).mpr h0) (iblk0 V c 0 t) (iblk0 V c 1 t)]
  rw [Payloads.energyStep_apply, Payloads.zeros3_apply]

/-- At a later stretch it is what the stretch before left plus the stretch's sum of squares. -/
theorem energy_at_next (c : Dev nD) (t : Fin cfg0.N) (h0 : ¬t.val % 3 = 0) (r : Fin 32) :
    (outsAt0 V c t.val t.isLt).2 (ix2 r 0)
      = (outsAt0 V c (t.val - 1) (Nat.lt_of_le_of_lt (Nat.sub_le _ _) t.isLt)).2 (ix2 r 0)
        + ∑ k : Fin 16000, tblk V c t (ix2 r k) * tblk V c t (ix2 r k) := by
  rw [outsAt0_B V c t h0]
  dsimp only
  rw [Pieces.energy_next c (grid0.coords t) (ms0_0 t) (hs0_0 t) (ms0_1 t) (hs0_1 t) (ms0_2 t) (hs0_2 t) (ms0_3 t) (hs0_3 t)
    (fun h => h0 ((hcond0_0 t).mp h)) (iblk0 V c 0 t) (iblk0 V c 1 t) _ _]
  rw [Payloads.energyStep_apply]

/-- After the last stretch of a row block the energy accumulator's row `r` is the row's energy. -/
theorem energy_row (c : Dev nD) (t : Fin cfg0.N) (ht : t.val % 3 = 2) (b : Fin 256) (r : Fin 32)
    (hb : b.val = 32 * (t.val / 3) + r.val) :
    (outsAt0 V c t.val t.isLt).2 (ix2 r 0) = rowEnergy (V c main_arg1) b := by
  have hN : t.val < 24 := lt_of_lt_of_eq t.isLt (show cfg0.N = 24 from N_0)
  have hlt1 : t.val - 1 < cfg0.N := Nat.lt_of_le_of_lt (Nat.sub_le _ _) t.isLt
  have hlt2 : t.val - 2 < cfg0.N := Nat.lt_of_le_of_lt (Nat.sub_le _ _) t.isLt
  have e2 := energy_at_next V c t (by omega) r
  have e1 := energy_at_next V c ⟨t.val - 1, hlt1⟩ (by dsimp only; omega) r
  have e0 := energy_at_first V c ⟨t.val - 2, hlt2⟩ (by dsimp only; omega) r
  dsimp only at e1 e0
  have e1' : (outsAt0 V c (t.val - 1) hlt1).2 (ix2 r 0)
      = (outsAt0 V c (t.val - 2) hlt2).2 (ix2 r 0)
        + ∑ k : Fin 16000, tblk V c ⟨t.val - 1, hlt1⟩ (ix2 r k) * tblk V c ⟨t.val - 1, hlt1⟩ (ix2 r k) := e1
  rw [e2, e1', e0]
  unfold rowEnergy
  rw [← inThree_eq_sum]
  unfold inThree
  have hd1 : (t.val - 1) / 3 = t.val / 3 := by omega
  have hd2 : (t.val - 2) / 3 = t.val / 3 := by omega
  simp only [target_read V c t 2 (by omega) b r hb,
    target_read V c ⟨t.val - 1, hlt1⟩ 1 (by dsimp only; omega) b r (by dsimp only; omega),
    target_read V c ⟨t.val - 2, hlt2⟩ 0 (by dsimp only; omega) b r (by dsimp only; omega)]

/-! ## The second result array at the exit -/

/-- What it holds: row `b`'s energy of the target. -/
def energies (c : Dev nD) : Buf (Elt Ideal) ((c : Thread nD τ).loc main_v0_1) :=
  fun i => rowEnergy (V c main_arg1) (i 0)

/-- The block written back after a row block's last stretch is that block of the energies. -/
theorem energy_flushed (c : Dev nD) (t : Fin cfg0.N) (hf : (cfg0.win 3).flush t = true) :
    (dat0 V c).flushed 3 t = ((cfg0.win 3).blk t).view.read (Elt Ideal) (energies V c) := by
  have ht : t.val % 3 = 2 := (flush0_3 t).mp hf
  obtain ⟨-, -, -, -, -, -, e0, -⟩ := idx_facts t
  show (cfg0.win 3).cut (grid0.coords t) ((dat0 V c).after 3 t) = _
  rw [after0_3]
  have hN : t.val < 24 := lt_of_lt_of_eq t.isLt (show cfg0.N = 24 from N_0)
  refine funext fun (j : S32x1.Idx) => ?_
  obtain ⟨r, z, rfl⟩ : ∃ (r : Fin 32) (z : Fin 1), j = ix2 r z := ⟨j 0, j 1, eq_ix2 j⟩
  obtain rfl : z = 0 := Fin.ext (by have := z.isLt; omega)
  rw [View.read_apply, cast_eq]
  unfold energies
  have hb : ((((cfg0.win 3).blk t).view.emb (ix2 r 0)) 0).val = 32 * (t.val / 3) + r.val := by
    show win0_3.index t (0 : Fin 2) * 32 + 1 * r.val = 32 * (t.val / 3) + r.val
    rw [e0]; omega
  have key := energy_row V c t ht ((((cfg0.win 3).blk t).view.emb (ix2 r 0)) 0) r hb
  have hcut : (cfg0.win 3).cut (grid0.coords t) (outsAt0 V c t.val t.isLt).2 (ix2 r 0)
      = (outsAt0 V c t.val t.isLt).2 (ix2 r 0) := rfl
  rw [hcut]
  exact key

/-- Every row is in the block some row block's last stretch writes back. -/
theorem energy_cover (i : S256x1.Idx) :
    ∃ t : Fin cfg0.N, (cfg0.win 3).flush t = true ∧ i ∈ ((cfg0.win 3).blk t).view.set := by
  have hi0 : (i 0).val < 256 := (i 0).isLt
  have hi1 : (i 1).val < 1 := (i 1).isLt
  have hN : cfg0.N = 24 := N_0
  have hlt : 3 * ((i 0).val / 32) + 2 < cfg0.N := by rw [hN]; omega
  refine ⟨⟨3 * ((i 0).val / 32) + 2, hlt⟩, (flush0_3 _).mpr (by show (3 * ((i 0).val / 32) + 2) % 3 = 2; omega), ?_⟩
  obtain ⟨-, -, -, -, -, -, e0, e1⟩ := idx_facts ⟨3 * ((i 0).val / 32) + 2, hlt⟩
  have e0' : win0_3.index ⟨3 * ((i 0).val / 32) + 2, hlt⟩ (0 : Fin 2) = (i 0).val / 32 := by rw [e0]; show (3 * ((i 0).val / 32) + 2) / 3 = _; omega
  show i ∈ ((View.whole main_v0_1).slice (win0_3.rect ⟨3 * ((i 0).val / 32) + 2, hlt⟩)).set
  rw [View.set_slice_whole, Rect.mem_set_unit]
  intro a
  match a with
  | ⟨0, _⟩ =>
    show win0_3.index ⟨3 * ((i 0).val / 32) + 2, hlt⟩ (0 : Fin 2) * 32 ≤ (i 0).val
      ∧ (i 0).val < win0_3.index ⟨3 * ((i 0).val / 32) + 2, hlt⟩ (0 : Fin 2) * 32 + 32
    rw [e0']; omega
  | ⟨1, _⟩ =>
    show win0_3.index ⟨3 * ((i 0).val / 32) + 2, hlt⟩ (1 : Fin 2) * 1 ≤ (i 1).val
      ∧ (i 1).val < win0_3.index ⟨3 * ((i 0).val / 32) + 2, hlt⟩ (1 : Fin 2) * 1 + 1
    rw [e1]; omega

/-- So the second result array ends at the 256 energies. -/
theorem energy_final (c : Dev nD) : (dat0 V c).arrAt 3 cfg0.N = energies V c :=
  (dat0 V c).arrAt_eq_of_cover 3 (energies V c) (energy_flushed V c) energy_cover

end Cert.KernelIdeal.DotEnergy

end
-- ==== Proof.Residual.lean ====
/-
  The second launch: what its result array holds at its exit, for any contents `V` of the buffers at its entry.

  The grid is 8 row blocks of 32 rows by 3 column stretches of 16000; point `t` is row block `t / 3`, stretch `t % 3`.
  Beside the target's and the estimate's [32, 16000] blocks the body reads the row block's [32, 1] piece of a column of
  scales `s`. The [32, 1] accumulator of a row block is reset at stretch 0, added into at stretches 1 and 2, and written
  back after stretch 2 — so the block written back at `t = 3q + 2` holds, at row `r`, the three stretches' lane sums of
  `(xₖ - s tₖ)(xₖ - s tₖ)` added in order to zero, which is the whole row's sum (`inThree_eq_sum`): the energy of the
  residual of row `32q + r` at the scale the column holds for that row. The eight written-back blocks tile the [256, 1]
  array.
-/
import proofs.«145115_j12833362280914_2_alg».proof.Proof.Pieces
import proofs.«145115_j12833362280914_2_alg».proof.Proof.Payloads
import proofs.«145115_j12833362280914_2_alg».proof.Proof.Spec

noncomputable section

open scoped BigOperators
open Idealize.ShloMosaic Idealize.ShloMosaic.TcCoe Idealize.SL.Sem Idealize.ShloMosaic.ValueIdx
open Idealize.ShloMosaic.Pipeline (Dat)

namespace Cert.KernelIdeal.Residual

open Cert.KernelIdeal Cert.KernelIdeal.Gen Cert.SiSnr

variable (V : (c : Dev nD) → (b : Ref sig .tc) → Buf (Elt Ideal) ((c : Thread nD τ).loc b))

/-- The printed index maps over the grid: the target's and the estimate's block at point `t` is (row block `t / 3`,
    stretch `t % 3`), the scales' and the output's is (row block `t / 3`, 0). -/
theorem idx_facts : ∀ t : Fin cfg1.N,
    win1_0.index t (0 : Fin 2) = t.val / 3 ∧ win1_0.index t (1 : Fin 2) = t.val % 3
    ∧ win1_1.index t (0 : Fin 2) = t.val / 3 ∧ win1_1.index t (1 : Fin 2) = t.val % 3
    ∧ win1_2.index t (0 : Fin 2) = t.val / 3 ∧ win1_2.index t (1 : Fin 2) = 0
    ∧ win1_3.index t (0 : Fin 2) = t.val / 3 ∧ win1_3.index t (1 : Fin 2) = 0 :=
  (by decide +kernel : ∀ t : Fin grid1.N, _)

/-! ## The input blocks, read in the arrays -/

/-- The target's and the estimate's [32, 16000] block and the scales' [32, 1] block at point `t`. -/
abbrev tblk (c : Dev nD) (t : Fin cfg1.N) : Vec Ideal S32x16000 .f32 := iblk1 V c 0 t
abbrev xblk (c : Dev nD) (t : Fin cfg1.N) : Vec Ideal S32x16000 .f32 := iblk1 V c 1 t
abbrev sblk (c : Dev nD) (t : Fin cfg1.N) : Vec Ideal S32x1 .f32 := iblk1 V c 2 t

/-- Row `r`, lane `k` of the target's block at point `t` is the target at row `32 (t / 3) + r`, column `16000 (t % 3) + k`. -/
theorem target_read (c : Dev nD) (t : Fin cfg1.N) (q : Fin 3) (hq : t.val % 3 = q.val) (b : Fin 256) (r : Fin 32)
    (hb : b.val = 32 * (t.val / 3) + r.val) (k : Fin 16000) :
    tblk V c t (ix2 r k) = V c main_arg1 (ix2 b (col q k)) := by
  obtain ⟨e0, e1, -⟩ := idx_facts t
  unfold tblk iblk1
  rw [View.read_apply]
  show V c main_arg1 (((cfg1.win 0).blk t).view.emb (ix2 r k)) = V c main_arg1 (ix2 b (col q k))
  refine congrArg (V c main_arg1) (funext fun a => Fin.ext ?_)
  match a with
  | ⟨0, _⟩ => show win1_0.index t (0 : Fin 2) * 32 + 1 * r.val = b.val; omega
  | ⟨1, _⟩ => show win1_0.index t (1 : Fin 2) * 16000 + 1 * k.val = q.val * 16000 + k.val; rw [e1, hq]; omega

/-- The same of the estimate's block. -/
theorem estimate_read (c : Dev nD) (t : Fin cfg1.N) (q : Fin 3) (hq : t.val % 3 = q.val) (b : Fin 256) (r : Fin 32)
    (hb : b.val = 32 * (t.val / 3) + r.val) (k : Fin 16000) :
    xblk V c t (ix2 r k) = V c main_arg0 (ix2 b (col q k)) := by
  obtain ⟨-, -, e0, e1, -⟩ := idx_facts t
  unfold xblk iblk1
  rw [View.read_apply]
  show V c main_arg0 (((cfg1.win 1).blk t).view.emb (ix2 r k)) = V c main_arg0 (ix2 b (col q k))
  refine congrArg (V c main_arg0) (funext fun a => Fin.ext ?_)
  match a with
  | ⟨0, _⟩ => show win1_1.index t (0 : Fin 2) * 32 + 1 * r.val = b.val; omega
  | ⟨1, _⟩ => show win1_1.index t (1 : Fin 2) * 16000 + 1 * k.val = q.val * 16000 + k.val; rw [e1, hq]; omega

/-- Row `r` of the scales' block at point `t` is the column's entry of row `32 (t / 3) + r`, whatever the stretch. -/
theorem scale_read (c : Dev nD) (t : Fin cfg1.N) (b : Fin 256) (r : Fin 32)
    (hb : b.val = 32 * (t.val / 3) + r.val) :
    sblk V c t (ix2 r 0) = V c main_v6 (ix2 b 0) := by
  obtain ⟨-, -, -, -, e0, e1, -⟩ := idx_facts t
  unfold sblk iblk1
  rw [View.read_apply]
  show V c main_v6 (((cfg1.win 2).blk t).view.emb (ix2 r 0)) = V c main_v6 (ix2 b 0)
  refine congrArg (V c main_v6) (funext fun a => Fin.ext ?_)
  match a with
  | ⟨0, _⟩ => show win1_2.index t (0 : Fin 2) * 32 + 1 * r.val = b.val; omega
  | ⟨1, _⟩ => show win1_2.index t (1 : Fin 2) * 1 + 1 * 0 = 0; omega

/-! ## The accumulator, point by point -/

/-- At stretch 0 the accumulator's row `r` is zero plus the stretch's sum of the residual's squares. -/
theorem residual_at_first (c : Dev nD) (t : Fin cfg1.N) (h0 : t.val % 3 = 0) (r : Fin 32) :
    outsAt1 V c t.val t.isLt (ix2 r 0)
      = 0 + ∑ k : Fin 16000,
          (xblk V c t (ix2 r k) - sblk V c t (ix2 r 0) * tblk V c t (ix2 r k))
            * (xblk V c t (ix2 r k) - sblk V c t (ix2 r 0) * tblk V c t (ix2 r k)) := by
  rw [outsAt1_A V c t h0]
  rw [Pieces.residual_first c (grid1.coords t) (ms1_0 t) (hs1_0 t) (ms1_1 t) (hs1_1 t) (ms1_2 t) (hs1_2 t) (ms1_3 t) (hs1_3 t)
    ((hcond1_0 t).mpr h0) (iblk1 V c 0 t) (iblk1 V c 1 t) (iblk1 V c 2 t)]
  rw [Payloads.residualStep_apply, Payloads.zerosR_apply]

/-- At a later stretch it is what the stretch before left plus the stretch's sum of the residual's squares. -/
theorem residual_at_next (c : Dev nD) (t : Fin cfg1.N) (h0 : ¬t.val % 3 = 0) (r : Fin 32) :
    outsAt1 V c t.val t.isLt (ix2 r 0)
      = outsAt1 V c (t.val - 1) (Nat.lt_of_le_of_lt (Nat.sub_le _ _) t.isLt) (ix2 r 0)
        + ∑ k : Fin 16000,
          (xblk V c t (ix2 r k) - sblk V c t (ix2 r 0) * tblk V c t (ix2 r k))
            * (xblk V c t (ix2 r k) - sblk V c t (ix2 r 0) * tblk V c t (ix2 r k)) := by
  rw [outsAt1_B V c t h0]
  rw [Pieces.residual_next c (grid1.coords t) (ms1_0 t) (hs1_0 t) (ms1_1 t) (hs1_1 t) (ms1_2 t) (hs1_2 t) (ms1_3 t) (hs1_3 t)
    (fun h => h0 ((hcond1_0 t).mp h)) (iblk1 V c 0 t) (iblk1 V c 1 t) (iblk1 V c 2 t) _]
  rw [Payloads.residualStep_apply]

/-- After the last stretch of a row block the accumulator's row `r` is the energy of the row's residual at the scale the
    column holds for the row. -/
theorem residual_row (c : Dev nD) (t : Fin cfg1.N) (ht : t.val % 3 = 2) (b : Fin 256) (r : Fin 32)
    (hb : b.val = 32 * (t.val / 3) + r.val) :
    outsAt1 V c t.val t.isLt (ix2 r 0)
      = residualEnergy (V c main_arg1) (V c main_arg0) (fun a => V c main_v6 (ix2 a 0)) b := by
  have hN : t.val < 24 := lt_of_lt_of_eq t.isLt (show cfg1.N = 24 from N_1)
  have hlt1 : t.val - 1 < cfg1.N := Nat.lt_of_le_of_lt (Nat.sub_le _ _) t.isLt
  have hlt2 : t.val - 2 < cfg1.N := Nat.lt_of_le_of_lt (Nat.sub_le _ _) t.isLt
  have e2 := residual_at_next V c t (by omega) r
  have e1 := residual_at_next V c ⟨t.val - 1, hlt1⟩ (by dsimp only; omega) r
  have e0 := residual_at_first V c ⟨t.val - 2, hlt2⟩ (by dsimp only; omega) r
  dsimp only at e1 e0
  have e1' : outsAt1 V c (t.val - 1) hlt1 (ix2 r 0)
      = outsAt1 V c (t.val - 2) hlt2 (ix2 r 0)
        + ∑ k : Fin 16000,
          (xblk V c ⟨t.val - 1, hlt1⟩ (ix2 r k) - sblk V c ⟨t.val - 1, hlt1⟩ (ix2 r 0) * tblk V c ⟨t.val - 1, hlt1⟩ (ix2 r k))
            * (xblk V c ⟨t.val - 1, hlt1⟩ (ix2 r k) - sblk V c ⟨t.val - 1, hlt1⟩ (ix2 r 0) * tblk V c ⟨t.val - 1, hlt1⟩ (ix2 r k)) := e1
  rw [e2, e1', e0]
  unfold residualEnergy
  rw [← inThree_eq_sum]
  unfold inThree
  have hd1 : (t.val - 1) / 3 = t.val / 3 := by omega
  have hd2 : (t.val - 2) / 3 = t.val / 3 := by omega
  simp only [target_read V c t 2 (by omega) b r hb, estimate_read V c t 2 (by omega) b r hb, scale_read V c t b r hb,
    target_read V c ⟨t.val - 1, hlt1⟩ 1 (by dsimp only; omega) b r (by dsimp only; omega),
    estimate_read V c ⟨t.val - 1, hlt1⟩ 1 (by dsimp only; omega) b r (by dsimp only; omega),
    scale_read V c ⟨t.val - 1, hlt1⟩ b r (by dsimp only; omega),
    target_read V c ⟨t.val - 2, hlt2⟩ 0 (by dsimp only; omega) b r (by dsimp only; omega),
    estimate_read V c ⟨t.val - 2, hlt2⟩ 0 (by dsimp only; omega) b r (by dsimp only; omega),
    scale_read V c ⟨t.val - 2, hlt2⟩ b r (by dsimp only; omega)]

/-! ## The result array at the exit -/

/-- What the result array holds at the exit: row b's residual energy at the scale the column holds for row b. -/
def residuals (c : Dev nD) : Buf (Elt Ideal) ((c : Thread nD τ).loc main_v7) :=
  fun i => residualEnergy (V c main_arg1) (V c main_arg0) (fun b => V c main_v6 (ix2 b 0)) (i 0)

/-- The block written back after a row block's last stretch is that block of the residual energies. -/
theorem residual_flushed (c : Dev nD) (t : Fin cfg1.N) (hf : (cfg1.win 3).flush t = true) :
    (dat1 V c).flushed 3 t = ((cfg1.win 3).blk t).view.read (Elt Ideal) (residuals V c) := by
  have ht : t.val % 3 = 2 := (flush1_3 t).mp hf
  obtain ⟨-, -, -, -, -, -, e0, -⟩ := idx_facts t
  show (cfg1.win 3).cut (grid1.coords t) ((dat1 V c).after 3 t) = _
  rw [after1_3]
  have hN : t.val < 24 := lt_of_lt_of_eq t.isLt (show cfg1.N = 24 from N_1)
  refine funext fun (j : S32x1.Idx) => ?_
  obtain ⟨r, z, rfl⟩ : ∃ (r : Fin 32) (z : Fin 1), j = ix2 r z := ⟨j 0, j 1, eq_ix2 j⟩
  obtain rfl : z = 0 := Fin.ext (by have := z.isLt; omega)
  rw [View.read_apply, cast_eq]
  unfold residuals
  have hb : ((((cfg1.win 3).blk t).view.emb (ix2 r 0)) 0).val = 32 * (t.val / 3) + r.val := by
    show win1_3.index t (0 : Fin 2) * 32 + 1 * r.val = 32 * (t.val / 3) + r.val
    rw [e0]; omega
  have key := residual_row V c t ht ((((cfg1.win 3).blk t).view.emb (ix2 r 0)) 0) r hb
  have hcut : (cfg1.win 3).cut (grid1.coords t) (outsAt1 V c t.val t.isLt) (ix2 r 0)
      = outsAt1 V c t.val t.isLt (ix2 r 0) := rfl
  rw [hcut]
  exact key

/-- Every row is in the block some row block's last stretch writes back. -/
theorem residual_cover (i : S256x1.Idx) :
    ∃ t : Fin cfg1.N, (cfg1.win 3).flush t = true ∧ i ∈ ((cfg1.win 3).blk t).view.set := by
  have hi0 : (i 0).val < 256 := (i 0).isLt
  have hi1 : (i 1).val < 1 := (i 1).isLt
  have hN : cfg1.N = 24 := N_1
  have hlt : 3 * ((i 0).val / 32) + 2 < cfg1.N := by rw [hN]; omega
  refine ⟨⟨3 * ((i 0).val / 32) + 2, hlt⟩, (flush1_3 _).mpr (by show (3 * ((i 0).val / 32) + 2) % 3 = 2; omega), ?_⟩
  obtain ⟨-, -, -, -, -, -, e0, e1⟩ := idx_facts ⟨3 * ((i 0).val / 32) + 2, hlt⟩
  have e0' : win1_3.index ⟨3 * ((i 0).val / 32) + 2, hlt⟩ (0 : Fin 2) = (i 0).val / 32 := by rw [e0]; show (3 * ((i 0).val / 32) + 2) / 3 = _; omega
  show i ∈ ((View.whole main_v7).slice (win1_3.rect ⟨3 * ((i 0).val / 32) + 2, hlt⟩)).set
  rw [View.set_slice_whole, Rect.mem_set_unit]
  intro a
  match a with
  | ⟨0, _⟩ =>
    show win1_3.index ⟨3 * ((i 0).val / 32) + 2, hlt⟩ (0 : Fin 2) * 32 ≤ (i 0).val
      ∧ (i 0).val < win1_3.index ⟨3 * ((i 0).val / 32) + 2, hlt⟩ (0 : Fin 2) * 32 + 32
    rw [e0']; omega
  | ⟨1, _⟩ =>
    show win1_3.index ⟨3 * ((i 0).val / 32) + 2, hlt⟩ (1 : Fin 2) * 1 ≤ (i 1).val
      ∧ (i 1).val < win1_3.index ⟨3 * ((i 0).val / 32) + 2, hlt⟩ (1 : Fin 2) * 1 + 1
    rw [e1]; omega

/-- So the result array ends at the 256 residual energies. -/
theorem residual_final (c : Dev nD) : (dat1 V c).arrAt 3 cfg1.N = residuals V c :=
  (dat1 V c).arrAt_eq_of_cover 3 (residuals V c) (residual_flushed V c) residual_cover

end Cert.KernelIdeal.Residual

end
-- ==== Proof.HostGlue.lean ====
/-
  The layout operations the host applies between the two launches, read at a row: a [256, 1] column reshaped to a
  vector of 256, and a vector of 256 laid out as a [256, 1] column, both keep row `b`'s entry at row `b`.
-/
import proofs.«145115_j12833362280914_2_alg».proof.Proof.Gen.KernelIdeal
import Idealize.ShloMosaic.Lib.Pipeline.Value
import Idealize.ShloMosaic.Lib.ValueIdx

noncomputable section

open Idealize.ShloMosaic Idealize.ShloMosaic.ValueIdx

namespace Cert.KernelIdeal.HostGlue

open Cert.KernelIdeal Cert.KernelIdeal.Gen

variable {α : Type}

/-- Entry `b` of a [256, 1] column reshaped to a vector is the column's row `b`. -/
theorem column_as_vector_apply (x : S256x1.Idx → α) (b : Fin 256) :
    shapeCast S256 x shapeCasts_S256x1_S256 (ix1 b) = x (ix2 b 0) := by
  refine shapeCast_apply x shapeCasts_S256x1_S256 (ix1 b) (ix2 b 0) ?_
  rw [Shape.rowMajor_val_one, Shape.rowMajor_val_two]
  show b.val * 1 + 0 = b.val
  omega

/-- Row `b` of a vector laid out as a [256, 1] column is the vector's entry `b`. -/
theorem vector_as_column_apply (x : S256.Idx → α) (b : Fin 256) :
    broadcastInDim S256x1 ![0] bcast_S256_S256x1_0 x (ix2 b 0) = x (ix1 b) :=
  broadcastInDim_apply _ bcast_S256_S256x1_0 x (ix2 b 0) (ix1 b) (fun a => match a with
    | ⟨0, _⟩ => by show b.val = if (256 : Nat) = 1 then 0 else b.val; rw [if_neg (by decide)])

end Cert.KernelIdeal.HostGlue

end
-- ==== Proof.KernelValue.lean ====
/-
  The kernel program's result, read back through its four segments from the launch memory.

  With `T` the target (the second argument) and `X` the estimate (the first): the first launch leaves the 256 inner
  products `⟨T, X⟩` and energies `‖T‖²` as two [256, 1] columns; the host reshapes them to vectors, forms the scales
  `s = ⟨T, X⟩ / ‖T‖²`, the products `(s s) ‖T‖²`, and lays the scales out as a [256, 1] column; the second launch reads
  `T`, `X` and that column and leaves the residual energies `∑ₖ (Xₖ - s Tₖ)²`; the host divides, and closes with the
  common function of the 256 ratios. Row by row the quotient is the specification's ratio, by the law that moves
  `s s` across the sum of the non-negative `Tₖ Tₖ` (`Cert.SiSnr.ratio_eq`).
-/
import proofs.«145115_j12833362280914_2_alg».proof.Proof.NamedRun
import proofs.«145115_j12833362280914_2_alg».proof.Proof.DotEnergy
import proofs.«145115_j12833362280914_2_alg».proof.Proof.Residual
import proofs.«145115_j12833362280914_2_alg».proof.Proof.HostGlue
import Idealize.ShloMosaic.Lib.StableHlo.Run

noncomputable section

open scoped BigOperators
open Idealize.ShloMosaic Idealize.ShloMosaic.TcCoe Idealize.SL.Sem Idealize.ShloMosaic.ValueIdx Idealize.ShloMosaic.StableHlo
open Idealize.ShloMosaic.Pipeline (Dat)

namespace Cert.KernelIdeal.Value

open Cert.KernelIdeal Cert.KernelIdeal.Gen Cert.SiSnr

variable (m : (ℓ : Loc nD τ sig) → Buf (Elt Ideal) ℓ) (ρ : Dev nD → PrngReg)

/-- The target and the estimate as launched. -/
abbrev T (c : Dev nD) : Waves := m ((c.tc : Thread nD τ).loc main_arg1)
abbrev X (c : Dev nD) : Waves := m ((c.tc : Thread nD τ).loc main_arg0)

/-! ## After the first launch -/

theorem dots_eq (c : Dev nD) :
    W1 m ρ c (Proc.devRef .tc main_v0_0) = fun i => rowDot (T m c) (X m c) (i 0) :=
  (W1_arr m ρ c 2).trans (DotEnergy.dot_final (V0 m ρ) c)

theorem energies_eq (c : Dev nD) :
    W1 m ρ c (Proc.devRef .tc main_v0_1) = fun i => rowEnergy (T m c) (i 0) :=
  (W1_arr m ρ c 3).trans (DotEnergy.energy_final (V0 m ρ) c)

theorem W1_target (c : Dev nD) : W1 m ρ c (Proc.devRef .tc main_arg1) = T m c :=
  (W1_arr m ρ c 0).trans (((dat0 (V0 m ρ) c).arrAt_in 0 rfl _).trans (A_eq0 (V0 m ρ) c 0))

theorem W1_estimate (c : Dev nD) : W1 m ρ c (Proc.devRef .tc main_arg0) = X m c :=
  (W1_arr m ρ c 1).trans (((dat0 (V0 m ρ) c).arrAt_in 1 rfl _).trans (A_eq0 (V0 m ρ) c 1))

/-! ## The host stretch between the launches -/

/-- The host's vector of the 256 scales. -/
def scales (c : Dev nD) : FVec Ideal S256 .f32 :=
  Host.divf (shapeCast S256 (W1 m ρ c (Proc.devRef .tc main_v0_0)) shapeCasts_S256x1_S256)
    (shapeCast S256 (W1 m ρ c (Proc.devRef .tc main_v0_1)) shapeCasts_S256x1_S256)

theorem scales_apply (c : Dev nD) (b : Fin 256) : scales m ρ c (ix1 b) = scale (T m c) (X m c) b := by
  unfold scales
  show Ideal.div (shapeCast S256 (W1 m ρ c (Proc.devRef .tc main_v0_0)) shapeCasts_S256x1_S256 (ix1 b))
      (shapeCast S256 (W1 m ρ c (Proc.devRef .tc main_v0_1)) shapeCasts_S256x1_S256 (ix1 b)) = _
  rw [HostGlue.column_as_vector_apply, HostGlue.column_as_vector_apply, dots_eq, energies_eq]
  rfl

theorem W2_scaleColumn (c : Dev nD) :
    W2 m ρ c (Proc.devRef .tc main_v6) = broadcastInDim S256x1 ![0] bcast_S256_S256x1_0 (scales m ρ c) := by
  show StableHlo.after hostOps1 (W1 m ρ c) (Proc.devRef .tc main_v6) = _
  after_results
  rfl

theorem W2_projection (c : Dev nD) :
    W2 m ρ c (Proc.devRef .tc main_v5)
      = mulf (mulf (scales m ρ c) (scales m ρ c))
          (shapeCast S256 (W1 m ρ c (Proc.devRef .tc main_v0_1)) shapeCasts_S256x1_S256) := by
  show StableHlo.after hostOps1 (W1 m ρ c) (Proc.devRef .tc main_v5) = _
  after_results
  rfl

theorem W2_target (c : Dev nD) : W2 m ρ c (Proc.devRef .tc main_arg1) = T m c := by
  show StableHlo.after hostOps1 (W1 m ρ c) (Proc.devRef .tc main_arg1) = _
  after_results
  exact W1_target m ρ c

theorem W2_estimate (c : Dev nD) : W2 m ρ c (Proc.devRef .tc main_arg0) = X m c := by
  show StableHlo.after hostOps1 (W1 m ρ c) (Proc.devRef .tc main_arg0) = _
  after_results
  exact W1_estimate m ρ c

/-- Row `b` of the column of scales the second launch reads. -/
theorem scaleColumn_apply (c : Dev nD) (b : Fin 256) :
    V2 m ρ c main_v6 (ix2 b 0) = scale (T m c) (X m c) b := by
  show W2 m ρ c (Proc.devRef .tc main_v6) (ix2 b 0) = _
  rw [W2_scaleColumn, HostGlue.vector_as_column_apply, scales_apply]

/-! ## After the second launch -/

theorem residuals_eq (c : Dev nD) :
    W3 m ρ c (Proc.devRef .tc main_v7) = fun i => residualEnergy (T m c) (X m c) (scale (T m c) (X m c)) (i 0) := by
  refine (W3_arr m ρ c 3).trans ((Residual.residual_final (V2 m ρ) c).trans ?_)
  unfold Residual.residuals
  have e1 : V2 m ρ c main_arg1 = T m c := W2_target m ρ c
  have e0 : V2 m ρ c main_arg0 = X m c := W2_estimate m ρ c
  have es : (fun b : Fin 256 => V2 m ρ c main_v6 (ix2 b 0)) = scale (T m c) (X m c) :=
    funext fun b => scaleColumn_apply m ρ c b
  rw [e1, e0, es]

theorem W3_projection (c : Dev nD) :
    W3 m ρ c (Proc.devRef .tc main_v5) = W2 m ρ c (Proc.devRef .tc main_v5) :=
  W3_of_ne m ρ c main_v5 (fun w => by fin_cases w <;> decide)

/-! ## The result -/

/-- The host's vector of the 256 ratios. -/
def ratios (c : Dev nD) : FVec Ideal S256 .f32 :=
  Host.divf (W3 m ρ c (Proc.devRef .tc main_v5))
    (shapeCast S256 (W3 m ρ c (Proc.devRef .tc main_v7)) shapeCasts_S256x1_S256)

/-- The ratio the kernel forms for row `b` is the specification's. -/
theorem ratios_apply (c : Dev nD) (b : Fin 256) : ratios m ρ c (ix1 b) = ratio (T m c) (X m c) b := by
  unfold ratios
  show Ideal.div (W3 m ρ c (Proc.devRef .tc main_v5) (ix1 b))
      (shapeCast S256 (W3 m ρ c (Proc.devRef .tc main_v7)) shapeCasts_S256x1_S256 (ix1 b)) = _
  rw [HostGlue.column_as_vector_apply, residuals_eq, W3_projection, W2_projection]
  show Ideal.div ((scales m ρ c (ix1 b) * scales m ρ c (ix1 b))
      * shapeCast S256 (W1 m ρ c (Proc.devRef .tc main_v0_1)) shapeCasts_S256x1_S256 (ix1 b)) _ = _
  rw [scales_apply, HostGlue.column_as_vector_apply, energies_eq]
  exact ratio_eq (T m c) (X m c) b

/-- The result buffer at the last boundary: the common closing function of the specification's ratios. -/
theorem result_eq (c : Dev nD) :
    W4 m ρ c (Proc.devRef .tc main_v17)
      = meanDecibels bcast_S_S256 reducesTo_S256_S_d0 h_S_ (fun i => ratio (T m c) (X m c) (i 0)) := by
  have hr : ratios m ρ c = fun i => ratio (T m c) (X m c) (i 0) :=
    funext fun i => by
      obtain ⟨b, rfl⟩ : ∃ b : Fin 256, i = ix1 b := ⟨i 0, eq_ix1 i⟩
      exact ratios_apply m ρ c b
  rw [← hr]
  unfold ratios
  show StableHlo.after hostOps2 (W3 m ρ c) (Proc.devRef .tc main_v17) = _
  after_results
  rfl

/-- The run with the result named by the specification. -/
theorem run : θ_run defs (onTc (τ := τ) (main (F := Ideal))) ⟨m, fun _ => 0, ρ⟩ (fun r => ∀ c : Dev nD,
      r.2.mem ((c.tc : Thread nD τ).loc main_v17)
        = meanDecibels bcast_S_S256 reducesTo_S256_S_d0 h_S_ (fun i => ratio (T m c) (X m c) (i 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m ρ c), (h c).2⟩) (Named.run (F := Ideal) m ρ)

end Cert.KernelIdeal.Value

end
-- ==== Proof.RefStages.lean ====
/-
  The reference's host program read one operation at a time: its 256 ratios are the specification's signal-to-noise
  ratios of the two argument arrays (target = the second argument, estimate = the first), and its result is the common
  closing function of them.
-/
import proofs.«145115_j12833362280914_2_alg».proof.Proof.Gen.ReferenceIdeal.Read
import proofs.«145115_j12833362280914_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Column `k` of row `i`

Each of the four row sums reads its operand at the index whose coordinates are the row and the summation variable. -/

theorem idx_v1 (i : S256.Idx) (k : Fin 48000) : idx_main_v1 i k = ix2 (i 0) k :=
  funext fun a => by match a with | ⟨0, _⟩ => rfl | ⟨1, _⟩ => rfl

theorem idx_v3 (i : S256.Idx) (k : Fin 48000) : idx_main_v3 i k = ix2 (i 0) k :=
  funext fun a => by match a with | ⟨0, _⟩ => rfl | ⟨1, _⟩ => rfl

theorem idx_v10 (i : S256.Idx) (k : Fin 48000) : idx_main_v10 i k = ix2 (i 0) k :=
  funext fun a => by match a with | ⟨0, _⟩ => rfl | ⟨1, _⟩ => rfl

theorem idx_v12 (i : S256.Idx) (k : Fin 48000) : idx_main_v12 i k = ix2 (i 0) k :=
  funext fun a => by match a with | ⟨0, _⟩ => rfl | ⟨1, _⟩ => rfl

/-! ## The scale -/

/-- The first row sum is `0 + ∑ₖ tₖ xₖ`: the inner product of the target's row with the estimate's. -/
theorem dot_eq (x0 x1 : (⟨S256x48000, .f32⟩ : BufTy).Contents (Elt Ideal)) (i : S256.Idx) :
    val_main_v1 (F := Ideal) x0 x1 i = Cert.SiSnr.rowDot x1 x0 (i 0) := by
  rw [val_main_v1_apply]
  show Ideal.ofBits .f32 0x00000000#32 + _ = _
  rw [Ideal.ofBits_zero_f32, zero_add]
  unfold Cert.SiSnr.rowDot
  refine Finset.sum_congr rfl fun k _ => ?_
  rw [val_main_v0_apply, idx_v1]
  rfl

/-- The second row sum is `0 + ∑ₖ tₖ tₖ`: the energy of the target's row. -/
theorem energy_eq (x1 : (⟨S256x48000, .f32⟩ : BufTy).Contents (Elt Ideal)) (i : S256.Idx) :
    val_main_v3 (F := Ideal) x1 i = Cert.SiSnr.rowEnergy x1 (i 0) := by
  rw [val_main_v3_apply]
  show Ideal.ofBits .f32 0x00000000#32 + _ = _
  rw [Ideal.ofBits_zero_f32, zero_add]
  unfold Cert.SiSnr.rowEnergy
  refine Finset.sum_congr rfl fun k _ => ?_
  rw [val_main_v2_apply, idx_v3]
  rfl

/-- Their quotient is the row's scale. -/
theorem scale_eq (x0 x1 : (⟨S256x48000, .f32⟩ : BufTy).Contents (Elt Ideal)) (i : S256.Idx) :
    val_main_v4 (F := Ideal) x0 x1 i = Cert.SiSnr.scale x1 x0 (i 0) := by
  rw [val_main_v4_apply, dot_eq, energy_eq]
  rfl

/-- The scale broadcast along the row: every column of row `j 0` reads that row's scale. -/
theorem scale_bcast_eq (x0 x1 : (⟨S256x48000, .f32⟩ : BufTy).Contents (Elt Ideal)) (j : S256x48000.Idx) :
    val_main_v6 (F := Ideal) x0 x1 j = Cert.SiSnr.scale x1 x0 (j 0) := by
  rw [val_main_v6_apply, val_main_v5_apply, scale_eq]
  rfl

/-- The projection `s t` at an index. -/
theorem proj_eq (x0 x1 : (⟨S256x48000, .f32⟩ : BufTy).Contents (Elt Ideal)) (j : S256x48000.Idx) :
    val_main_v7 (F := Ideal) x0 x1 j = Cert.SiSnr.scale x1 x0 (j 0) * x1 j := by
  rw [val_main_v7_apply, scale_bcast_eq]
  rfl

/-- The residual `x - s t` at an index. -/
theorem resid_eq (x0 x1 : (⟨S256x48000, .f32⟩ : BufTy).Contents (Elt Ideal)) (j : S256x48000.Idx) :
    val_main_v8 (F := Ideal) x0 x1 j = x0 j - Cert.SiSnr.scale x1 x0 (j 0) * x1 j := by
  rw [val_main_v8_apply, proj_eq]
  rfl

/-! ## The two energies -/

/-- The third row sum is `0 + ∑ₖ (s tₖ)(s tₖ)`: the projection's energy, term by term. -/
theorem projEnergy_eq (x0 x1 : (⟨S256x48000, .f32⟩ : BufTy).Contents (Elt Ideal)) (i : S256.Idx) :
    val_main_v10 (F := Ideal) x0 x1 i = Cert.SiSnr.projectionEnergy x1 (Cert.SiSnr.scale x1 x0) (i 0) := by
  rw [val_main_v10_apply]
  show Ideal.ofBits .f32 0x00000000#32 + _ = _
  rw [Ideal.ofBits_zero_f32, zero_add]
  unfold Cert.SiSnr.projectionEnergy
  refine Finset.sum_congr rfl fun k _ => ?_
  rw [val_main_v9_apply, proj_eq, idx_v10]
  rfl

/-- The fourth row sum is `0 + ∑ₖ (xₖ - s tₖ)(xₖ - s tₖ)`: the residual's energy. -/
theorem residEnergy_eq (x0 x1 : (⟨S256x48000, .f32⟩ : BufTy).Contents (Elt Ideal)) (i : S256.Idx) :
    val_main_v12 (F := Ideal) x0 x1 i = Cert.SiSnr.residualEnergy x1 x0 (Cert.SiSnr.scale x1 x0) (i 0) := by
  rw [val_main_v12_apply]
  show Ideal.ofBits .f32 0x00000000#32 + _ = _
  rw [Ideal.ofBits_zero_f32, zero_add]
  unfold Cert.SiSnr.residualEnergy
  refine Finset.sum_congr rfl fun k _ => ?_
  rw [val_main_v11_apply, resid_eq, idx_v12]
  rfl

/-! ## The ratio and the result -/

/-- The reference's ratio of row `i` is the specification's: its four host sums are `0 + ∑ₖ` of the products, its scale
    the quotient of the first two, broadcast along the row. -/
theorem ratio_eq (x0 x1 : (⟨S256x48000, .f32⟩ : BufTy).Contents (Elt Ideal)) :
    val_main_v13 (F := Ideal) x0 x1 = fun i => Cert.SiSnr.ratio x1 x0 (i 0) := by
  funext i
  rw [val_main_v13_apply, projEnergy_eq, residEnergy_eq]
  rfl

/-- The reference's result: the common closing function of the specification's ratios. -/
theorem result_eq (x0 x1 : (⟨S256x48000, .f32⟩ : BufTy).Contents (Elt Ideal)) :
    val_main_v21 (F := Ideal) x0 x1
      = Cert.SiSnr.meanDecibels bcast_S_S256 reducesTo_S256_S_d0 h_S_ (fun i => Cert.SiSnr.ratio x1 x0 (i 0)) := by
  show Cert.SiSnr.meanDecibels _ _ _ (val_main_v13 (F := Ideal) x0 x1) = _
  rw [ratio_eq]

end Cert.ReferenceIdeal.RefValue

end
-- ==== Proof.lean ====
/-
  The kernel computes the mean over 256 waveforms of `-10 log₁₀` of the signal-to-noise ratio
  `‖s t‖² / ‖x - s t‖²` with `s = ⟨t, x⟩ / ‖t‖²`, and so does the reference; on the extended reals the two results are
  equal for every input.

  The two programs differ in two ways. The kernel forms `‖s t‖²` as `(s s) ‖t‖²` where the reference sums
  `(s tₖ)(s tₖ)` term by term: the factor `s s` moves across the sum because every `tₖ tₖ` is non-negative, for any
  `s`, infinite ones included (Proof/Spec.lean, `mul_sum_of_nonneg`) — so the inputs' finiteness is never used. And the
  kernel takes each row's three sums over 48000 columns as three stretches of 16000 accumulated in order from zero,
  in two launches over a grid of 8 row blocks by 3 stretches, where the reference takes them whole: addition on the
  extended reals is associative and commutative (`inThree_eq_sum`). The residual `x - s t` and the closing host
  operations are the same text on both sides.

  Proof/KernelValue.lean reads the kernel's result back through its two launches and two host stretches to the
  specification's function of the arguments; Proof/RefStages.lean reads the reference's host program to the same
  function; the three frames are the programs' runs with the result dropped.
-/
import proofs.«145115_j12833362280914_2_alg».proof.Defs
import proofs.«145115_j12833362280914_2_alg».proof.Proof.Gen.Kernel
import proofs.«145115_j12833362280914_2_alg».proof.Proof.Gen.Kernel.Skeleton
import proofs.«145115_j12833362280914_2_alg».proof.Proof.Gen.Kernel.Launch
import proofs.«145115_j12833362280914_2_alg».proof.Proof.Gen.Kernel.Points
import proofs.«145115_j12833362280914_2_alg».proof.Proof.Gen.Kernel.Frame
import proofs.«145115_j12833362280914_2_alg».proof.Proof.Gen.KernelIdeal
import proofs.«145115_j12833362280914_2_alg».proof.Proof.Gen.KernelIdeal.Skeleton
import proofs.«145115_j12833362280914_2_alg».proof.Proof.Gen.KernelIdeal.Launch
import proofs.«145115_j12833362280914_2_alg».proof.Proof.Gen.KernelIdeal.Points
import proofs.«145115_j12833362280914_2_alg».proof.Proof.Gen.KernelIdeal.Frame
import proofs.«145115_j12833362280914_2_alg».proof.Proof.Gen.ReferenceIdeal
import proofs.«145115_j12833362280914_2_alg».proof.Proof.Gen.ReferenceIdeal.Run
import proofs.«145115_j12833362280914_2_alg».proof.Proof.Gen.ReferenceIdeal.Read
import proofs.«145115_j12833362280914_2_alg».proof.Proof.Gen.Pre_finite_inputs
import proofs.«145115_j12833362280914_2_alg».proof.Proof.KernelValue
import proofs.«145115_j12833362280914_2_alg».proof.Proof.RefStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the common closing function of the specification's 256 ratios of the arguments, which agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v21_eq, Cert.ReferenceIdeal.RefValue.result_eq,
    (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
